-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S40000x128 : Shape := ⟨2, ![40000, 128]⟩
abbrev S640000 : Shape := ⟨1, ![640000]⟩
abbrev S128x128 : Shape := ⟨2, ![128, 128]⟩
abbrev S128 : Shape := ⟨1, ![128]⟩
abbrev S_ : Shape := ⟨0, ![]⟩

class Facts : Prop where
  bcast_S_S40000x128 : S_.BroadcastsInDim S40000x128 (![] : Fin 0 → Fin S40000x128.rank)
  reducesTo_S40000x128_S_d0_1 : S40000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S40000x128 .f32) (main_arg1 : IVec S640000 32) (main_arg2 : IVec S640000 32) (main_arg3 : FVec F S128x128 .f32) (main_arg4 : FVec F S128 .f32) : IVec S_ 1 :=
  let main_v0 : FVec F S40000x128 .f32 := Host.absf main_arg0
  let main_cst : FVec F S_ .f32 := constant S_ .f32 0x7F800000#32
  let main_v1 : FVec F S40000x128 .f32 := broadcastInDim S40000x128 ![] bcast_S_S40000x128 main_cst
  let main_v2 : IVec S40000x128 1 := cmpf .olt main_v0 main_v1
  let main_c : IVec S_ 1 := constantI S_ 1 1#1
  let main_v3 : IVec S_ 1 := (fun x v => Host.reduce IntOp.andi x v reducesTo_S40000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S40000x128 : Shape := ⟨2, ![40000, 128]⟩
abbrev S640000 : Shape := ⟨1, ![640000]⟩
abbrev S128x128 : Shape := ⟨2, ![128, 128]⟩
abbrev S128 : Shape := ⟨1, ![128]⟩
abbrev S_ : Shape := ⟨0, ![]⟩
abbrev S640000x1 : Shape := ⟨2, ![640000, 1]⟩
abbrev S640000x128 : Shape := ⟨2, ![640000, 128]⟩
abbrev S40000 : Shape := ⟨1, ![40000]⟩
abbrev S40000x1 : Shape := ⟨2, ![40000, 1]⟩
abbrev S1x128 : Shape := ⟨2, ![1, 128]⟩
abbrev S2000x128 : Shape := ⟨2, ![2000, 128]⟩
abbrev S2000x1 : Shape := ⟨2, ![2000, 1]⟩

abbrev nBuf : Space → Nat
  | .hbm => 28
  | .vmem => 8
  | .smem => 0
  | _ => 0

abbrev bufTy : (tb : Table) → Fin (tcTables nBuf tb) → BufTy
  | .hbm, ⟨0, _⟩ => ⟨S40000x128, .f32⟩
  | .hbm, ⟨1, _⟩ => ⟨S640000, .i32⟩
  | .hbm, ⟨2, _⟩ => ⟨S640000, .i32⟩
  | .hbm, ⟨3, _⟩ => ⟨S128x128, .f32⟩
  | .hbm, ⟨4, _⟩ => ⟨S128, .f32⟩
  | .hbm, ⟨5, _⟩ => ⟨S_, .i32⟩
  | .hbm, ⟨6, _⟩ => ⟨S640000, .i32⟩
  | .hbm, ⟨7, _⟩ => ⟨S640000, .i1⟩
  | .hbm, ⟨8, _⟩ => ⟨S_, .i32⟩
  | .hbm, ⟨9, _⟩ => ⟨S640000, .i32⟩
  | .hbm, ⟨10, _⟩ => ⟨S640000, .i32⟩
  | .hbm, ⟨11, _⟩ => ⟨S640000, .i32⟩
  | .hbm, ⟨12, _⟩ => ⟨S640000x1, .i32⟩
  | .hbm, ⟨13, _⟩ => ⟨S640000x128, .f32⟩
  | .hbm, ⟨14, _⟩ => ⟨S_, .f32⟩
  | .hbm, ⟨15, _⟩ => ⟨S40000x128, .f32⟩
  | .hbm, ⟨16, _⟩ => ⟨S640000x1, .i32⟩
  | .hbm, ⟨17, _⟩ => ⟨S40000x128, .f32⟩
  | .hbm, ⟨18, _⟩ => ⟨S_, .f32⟩
  | .hbm, ⟨19, _⟩ => ⟨S640000, .f32⟩
  | .hbm, ⟨20, _⟩ => ⟨S_, .f32⟩
  | .hbm, ⟨21, _⟩ => ⟨S40000, .f32⟩
  | .hbm, ⟨22, _⟩ => ⟨S640000x1, .i32⟩
  | .hbm, ⟨23, _⟩ => ⟨S40000, .f32⟩
  | .hbm, ⟨24, _⟩ => ⟨S40000x1, .f32⟩
  | .hbm, ⟨25, _⟩ => ⟨S128x128, .f32⟩
  | .hbm, ⟨26, _⟩ => ⟨S1x128, .f32⟩
  | .hbm, ⟨27, _⟩ => ⟨S40000x128, .f32⟩
  | .local _ .vmem, ⟨0, _⟩ => ⟨S2000x128, .f32⟩
  | .local _ .vmem, ⟨1, _⟩ => ⟨S2000x128, .f32⟩
  | .local _ .vmem, ⟨2, _⟩ => ⟨S2000x1, .f32⟩
  | .local _ .vmem, ⟨3, _⟩ => ⟨S2000x1, .f32⟩
  | .local _ .vmem, ⟨4, _⟩ => ⟨S128x128, .f32⟩
  | .local _ .vmem, ⟨5, _⟩ => ⟨S1x128, .f32⟩
  | .local _ .vmem, ⟨6, _⟩ => ⟨S2000x128, .f32⟩
  | .local _ .vmem, ⟨7, _⟩ => ⟨S2000x128, .f32⟩
  | _, _ => ⟨S40000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S_S640000 : S_.BroadcastsInDim S640000 (![] : Fin 0 → Fin S640000.rank)
  bcast_S640000_S640000x1_0 : S640000.BroadcastsInDim S640000x1 (![0] : Fin 1 → Fin S640000x1.rank)
  bcast_S_S40000x128 : S_.BroadcastsInDim S40000x128 (![] : Fin 0 → Fin S40000x128.rank)
  bcast_S_S40000 : S_.BroadcastsInDim S40000 (![] : Fin 0 → Fin S40000.rank)
  shapeCasts_S40000_S40000x1 : S40000.ShapeCasts S40000x1
  transposes_S128x128_S128x128_1_0 : S128x128.Transposes [1, 0] S128x128
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  gather_S40000x128_S640000x1_S640000x128_1_0_n_n_0_1_1128_wf : GatherDims.WF S40000x128 S640000x1 S640000x128 [1] [0] [] [0] [] 1 ![1, 128]
  scatter_S40000x128_S640000x1_S640000x128_1_0_0_1_wf : ScatterDims.WF S40000x128 S640000x1 S640000x128 [1] [0] [0] 1
  scatter_S40000_S640000x1_S640000_n_0_0_1_wf : ScatterDims.WF S40000 S640000x1 S640000 [] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S40000x128.size a
  hwx0_0 : ∀ i : grid0.Coords, EltTy.bits .f32 = 32 ∨ (Rect.block (s := S40000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S40000x1.size a
  hwx0_1 : ∀ i : grid0.Coords, EltTy.bits .f32 = 32 ∨ (Rect.block (s := S40000x1) S2000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x128.size a ≤ S40000x128.size a
  hwx0_4 : ∀ i : grid0.Coords, EltTy.bits .f32 = 32 ∨ (Rect.block (s := S40000x128) S2000x128.size (cc0_transform_4 i) (hinb0_4 i)).WholeWords (EltTy.packing .f32)

variable [Facts₀]

def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf
def scatter_S40000_S640000x1_S640000_n_0_0_1 : ScatterDims S40000 S640000x1 S640000 where
  updateWindowDims := []
  insertedWindowDims := [0]
  scatterDimsToOperandDims := [0]
  indexVectorDim := 1
  wf := scatter_S40000_S640000x1_S640000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_v9) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v17) S2000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S40000x128 : Shape := ⟨2, ![40000, 128]⟩
abbrev S640000 : Shape := ⟨1, ![640000]⟩
abbrev S128x128 : Shape := ⟨2, ![128, 128]⟩
abbrev S128 : Shape := ⟨1, ![128]⟩
abbrev S_ : Shape := ⟨0, ![]⟩
abbrev S640000x1 : Shape := ⟨2, ![640000, 1]⟩
abbrev S640000x128 : Shape := ⟨2, ![640000, 128]⟩
abbrev S40000 : Shape := ⟨1, ![40000]⟩
abbrev S40000x1 : Shape := ⟨2, ![40000, 1]⟩
abbrev S1x128 : Shape := ⟨2, ![1, 128]⟩

abbrev nBuf : Space → Nat
  | .hbm => 35
  | .vmem => 0
  | .smem => 0
  | _ => 0

abbrev bufTy : (tb : Table) → Fin (tcTables nBuf tb) → BufTy
  | .hbm, ⟨0, _⟩ => ⟨S40000x128, .f32⟩
  | .hbm, ⟨1, _⟩ => ⟨S640000, .i32⟩
  | .hbm, ⟨2, _⟩ => ⟨S640000, .i32⟩
  | .hbm, ⟨3, _⟩ => ⟨S128x128, .f32⟩
  | .hbm, ⟨4, _⟩ => ⟨S128, .f32⟩
  | .hbm, ⟨5, _⟩ => ⟨S_, .i32⟩
  | .hbm, ⟨6, _⟩ => ⟨S640000, .i32⟩
  | .hbm, ⟨7, _⟩ => ⟨S640000, .i1⟩
  | .hbm, ⟨8, _⟩ => ⟨S_, .i32⟩
  | .hbm, ⟨9, _⟩ => ⟨S640000, .i32⟩
  | .hbm, ⟨10, _⟩ => ⟨S640000, .i32⟩
  | .hbm, ⟨11, _⟩ => ⟨S640000, .i32⟩
  | .hbm, ⟨12, _⟩ => ⟨S640000x1, .i32⟩
  | .hbm, ⟨13, _⟩ => ⟨S640000x128, .f32⟩
  | .hbm, ⟨14, _⟩ => ⟨S_, .f32⟩
  | .hbm, ⟨15, _⟩ => ⟨S40000x128, .f32⟩
  | .hbm, ⟨16, _⟩ => ⟨S640000x1, .i32⟩
  | .hbm, ⟨17, _⟩ => ⟨S40000x128, .f32⟩
  | .hbm, ⟨18, _⟩ => ⟨S_, .f32⟩
  | .hbm, ⟨19, _⟩ => ⟨S640000, .f32⟩
  | .hbm, ⟨20, _⟩ => ⟨S_, .f32⟩
  | .hbm, ⟨21, _⟩ => ⟨S40000, .f32⟩
  | .hbm, ⟨22, _⟩ => ⟨S640000x1, .i32⟩
  | .hbm, ⟨23, _⟩ => ⟨S40000, .f32⟩
  | .hbm, ⟨24, _⟩ => ⟨S40000x1, .f32⟩
  | .hbm, ⟨25, _⟩ => ⟨S_, .f32⟩
  | .hbm, ⟨26, _⟩ => ⟨S40000x1, .f32⟩
  | .hbm, ⟨27, _⟩ => ⟨S40000x1, .f32⟩
  | .hbm, ⟨28, _⟩ => ⟨S40000x128, .f32⟩
  | .hbm, ⟨29, _⟩ => ⟨S40000x128, .f32⟩
  | .hbm, ⟨30, _⟩ => ⟨S128x128, .f32⟩
  | .hbm, ⟨31, _⟩ => ⟨S40000x128, .f32⟩
  | .hbm, ⟨32, _⟩ => ⟨S1x128, .f32⟩
  | .hbm, ⟨33, _⟩ => ⟨S40000x128, .f32⟩
  | .hbm, ⟨34, _⟩ => ⟨S40000x128, .f32⟩
  | _, _ => ⟨S40000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩

abbrev nD : Nat := 1
abbrev τ : Topo := Topo.v7x

variable {F : FTy → Type} [FloatOps F]

class Facts₀ : Prop where
  bcast_S_S640000 : S_.BroadcastsInDim S640000 (![] : Fin 0 → Fin S640000.rank)
  bcast_S640000_S640000x1_0 : S640000.BroadcastsInDim S640000x1 (![0] : Fin 1 → Fin S640000x1.rank)
  bcast_S_S40000x128 : S_.BroadcastsInDim S40000x128 (![] : Fin 0 → Fin S40000x128.rank)
  bcast_S_S40000 : S_.BroadcastsInDim S40000 (![] : Fin 0 → Fin S40000.rank)
  bcast_S40000_S40000x1_0 : S40000.BroadcastsInDim S40000x1 (![0] : Fin 1 → Fin S40000x1.rank)
  bcast_S_S40000x1 : S_.BroadcastsInDim S40000x1 (![] : Fin 0 → Fin S40000x1.rank)
  bcast_S40000x1_S40000x128_0_1 : S40000x1.BroadcastsInDim S40000x128 (![0, 1] : Fin 2 → Fin S40000x128.rank)
  transposes_S128x128_S128x128_1_0 : S128x128.Transposes [1, 0] S128x128
  bcast_S128_S1x128_1 : S128.BroadcastsInDim S1x128 (![1] : Fin 1 → Fin S1x128.rank)
  bcast_S1x128_S40000x128_0_1 : S1x128.BroadcastsInDim S40000x128 (![0, 1] : Fin 2 → Fin S40000x128.rank)
  gather_S40000x128_S640000x1_S640000x128_1_0_n_n_0_1_1128_wf : GatherDims.WF S40000x128 S640000x1 S640000x128 [1] [0] [] [0] [] 1 ![1, 128]
  scatter_S40000x128_S640000x1_S640000x128_1_0_0_1_wf : ScatterDims.WF S40000x128 S640000x1 S640000x128 [1] [0] [0] 1
  scatter_S40000_S640000x1_S640000_n_0_0_1_wf : ScatterDims.WF S40000 S640000x1 S640000 [] [0] [0] 1
  dot_S40000x128_S128x128_S40000x128_1_0_0_1_n_n_wf : DotDims.WF S40000x128 S128x128 S40000x128 [1] [0] [0] [1] [] []

variable [Facts₀]

def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf
def scatter_S40000_S640000x1_S640000_n_0_0_1 : ScatterDims S40000 S640000x1 S640000 where
  updateWindowDims := []
  insertedWindowDims := [0]
  scatterDimsToOperandDims := [0]
  indexVectorDim := 1
  wf := scatter_S40000_S640000x1_S640000_n_0_0_1_wf
def dot_S40000x128_S128x128_S40000x128_1_0_0_1_n_n : DotDims S40000x128 S128x128 S40000x128 where
  lhsContracting := [1]
  rhsContracting := [0]
  lhsNonContracting := [0]
  rhsNonContracting := [1]
  lhsBatch := []
  rhsBatch := []
  wf := dot_S40000x128_S128x128_S40000x128_1_0_0_1_n_n_wf

class Facts : Prop extends Facts₀ where

variable [Facts]
-- ==== Proof.Spec.lean ====
/-
  The function both programs compute, stated once over the extended reals.

  A node's row of the result is its mean neighbour feature vector pushed through a linear layer:
  with `ns r k` the sum of feature `k` over the edges arriving at node `r`, and `deg r` the number of
  those edges,
      out r c  =  (∑ k, (ns r k / (deg r + ε)) · w c k)  +  b c .
  The division is the extended reals' total division, the sum runs over the 128 features in one fixed
  order, and `ε` is the f32 word both programs carry for 1e-6; it is never evaluated, because the same
  word stands on both sides.
-/
import Idealize.ShloMosaic.PureOps.Ideal
import Idealize.ShloMosaic.Lib.ValueIdx

noncomputable section

namespace Cert.MeanLinear

open Idealize.ShloMosaic Idealize.ShloMosaic.ValueIdx

/-- The smoothing term added to a node's degree before dividing: the f32 word for 1e-6. -/
abbrev eps : EReal := Ideal.ofBits .f32 0x358637BD#32

/-- Row `r`, column `c` of the result: the degree-normalised neighbour sum of node `r` contracted with
    row `c` of the weights over the feature axis, plus the bias at `c`. -/
def meanLinear (ns : (⟨2, ![40000, 128]⟩ : Shape).Idx → EReal) (deg : (⟨1, ![40000]⟩ : Shape).Idx → EReal)
    (w : (⟨2, ![128, 128]⟩ : Shape).Idx → EReal) (b : (⟨1, ![128]⟩ : Shape).Idx → EReal) :
    (⟨2, ![40000, 128]⟩ : Shape).Idx → EReal :=
  fun i => (∑ k : Fin 128, Ideal.div (ns (ix2 (i 0) k)) (deg (ix1 (i 0)) + eps) * w (ix2 (i 1) k)) + b (ix1 (i 1))

end Cert.MeanLinear

end
-- ==== Proof.BodyAt.lean ====
/-
  What the kernel's body stores, read at one entry of its block.

  The body works on a block of 2000 node rows: it divides each neighbour-sum row by that row's degree
  plus ε (the degree is a one-column block, spread along the features), multiplies the quotient block by
  the whole transposed weight matrix, accumulating from zero, and adds the bias row spread over the rows.
  Narrowing to bf16 before the product changes nothing on the extended reals. So entry (p, q) of the
  stored block is
      (∑ k, (ns p k / (deg p 0 + ε)) · wt k q) + b 0 q ,
  a sum over the 128 features.
-/
import proofs.«170134_j8718783611327_1_alg».proof.Proof.Gen.KernelIdeal.Skeleton
import proofs.«170134_j8718783611327_1_alg».proof.Proof.Spec
import Idealize.ShloMosaic.Lib.ValueIdx
import Idealize.ShloMosaic.Lib.Pipeline.Value
import Idealize.ShloMosaic.PureOps.Ideal.Laws

noncomputable section

namespace Cert.MeanLinear.Body

open Cert.KernelIdeal Cert.KernelIdeal.Gen Idealize.ShloMosaic Idealize.ShloMosaic.ValueIdx

/-- The bias row spread over the 2000 rows is, at (p, q), the row's entry q. -/
theorem bias_spread (b : FVec Ideal S1x128 .f32) (p : Fin 2000) (q : Fin 128) :
    broadcastTo S2000x128 b broadcasts_S1x128_S2000x128 (ix2 p q) = b (ix2 0 q) :=
  broadcastTo_apply b broadcasts_S1x128_S2000x128 (ix2 p q) (ix2 0 q) (fun a => match a with
    | ⟨0, _⟩ => by show (0 : Nat) = if (1 : Nat) = 1 then 0 else p.val; rw [if_pos rfl]
    | ⟨1, _⟩ => by show q.val = if (128 : Nat) = 1 then 0 else q.val; rw [if_neg (by decide)])

/-- A one-column block spread along the 128 features is, at (p, k), the column's entry p. -/
theorem col_spread (d : FVec Ideal S2000x1 .f32) (p : Fin 2000) (k : Fin 128) :
    broadcastTo S2000x128 d broadcasts_S2000x1_S2000x128 (ix2 p k) = d (ix2 p 0) :=
  broadcastTo_apply d broadcasts_S2000x1_S2000x128 (ix2 p k) (ix2 p 0) (fun a => match a with
    | ⟨0, _⟩ => by show p.val = if (2000 : Nat) = 1 then 0 else p.val; rw [if_neg (by decide)]
    | ⟨1, _⟩ => by show (0 : Nat) = if (1 : Nat) = 1 then 0 else k.val; rw [if_pos rfl])

theorem lhs_row (i : S2000x128.Idx) (κ : dot_S2000x128_S128x128_S2000x128_1_0_0_1_n_n.contr.Idx) :
    (dot_S2000x128_S128x128_S2000x128_1_0_0_1_n_n.lhsIdx i κ 0).val = (i 0).val := by
  unfold DotDims.lhsIdx
  rw [dif_neg (show ¬(0 : Fin S2000x128.rank) ∈ dot_S2000x128_S128x128_S2000x128_1_0_0_1_n_n.lhsBatch by decide),
    dif_pos (show (0 : Fin S2000x128.rank) ∈ dot_S2000x128_S128x128_S2000x128_1_0_0_1_n_n.lhsNonContracting by decide)]
  rfl

theorem rhs_col (i : S2000x128.Idx) (κ : dot_S2000x128_S128x128_S2000x128_1_0_0_1_n_n.contr.Idx) :
    (dot_S2000x128_S128x128_S2000x128_1_0_0_1_n_n.rhsIdx i κ 1).val = (i 1).val := by
  unfold DotDims.rhsIdx
  rw [dif_neg (show ¬(1 : Fin S128x128.rank) ∈ dot_S2000x128_S128x128_S2000x128_1_0_0_1_n_n.rhsBatch by decide),
    dif_pos (show (1 : Fin S128x128.rank) ∈ dot_S2000x128_S128x128_S2000x128_1_0_0_1_n_n.rhsNonContracting by decide)]
  rfl

/-- The block product accumulated from zero is, at (p, q), the sum over the features of row p of the left
    factor against column q of the right one. -/
theorem product_at (l : FVec Ideal S2000x128 .bf16) (r : FVec Ideal S128x128 .bf16) (p : Fin 2000) (q : Fin 128) :
    matmul (F := Ideal) dot_S2000x128_S128x128_S2000x128_1_0_0_1_n_n none l r (constant (F := Ideal) S2000x128 .f32 0x00000000#32) (ix2 p q)
      = ∑ k : Fin 128, l (ix2 p k) * r (ix2 k q) := by
  simp only [matmul]
  rw [Ideal.matmul_constant_zero_apply,
    ← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx (ix2 p q)
      ((ValueIdx.contrEquiv1 dot_S2000x128_S128x128_S2000x128_1_0_0_1_n_n 128 rfl rfl).symm k) = ix2 p k :=
    funext fun a => Fin.ext (by
      match a with
      | ⟨0, _⟩ => exact lhs_row _ _
      | ⟨1, _⟩ => exact (dot_S2000x128_S128x128_S2000x128_1_0_0_1_n_n.lhsIdx_val_of_single rfl _ _).trans hk)
  have er : dot_S2000x128_S128x128_S2000x128_1_0_0_1_n_n.rhsIdx (ix2 p q)
      ((ValueIdx.contrEquiv1 dot_S2000x128_S128x128_S2000x128_1_0_0_1_n_n 128 rfl rfl).symm k) = ix2 k q :=
    funext fun a => Fin.ext (by
      match a with
      | ⟨0, _⟩ => exact (dot_S2000x128_S128x128_S2000x128_1_0_0_1_n_n.rhsIdx_val_of_single rfl _ _).trans hk
      | ⟨1, _⟩ => exact rhs_col _ _)
  rw [el, er]

/-- Entry (p, q) of what the body stores, from the four blocks it loads. -/
theorem stored_at (ns : Vec Ideal S2000x128 .f32) (deg : Vec Ideal S2000x1 .f32) (wt : Vec Ideal S128x128 .f32)
    (b : Vec Ideal S1x128 .f32) (p : Fin 2000) (q : Fin 128) :
    k0_pay1 (F := Ideal) ns deg wt b (ix2 p q)
      = (∑ k : Fin 128, Ideal.div (ns (ix2 p k)) (deg (ix2 p 0) + eps) * wt (ix2 k q)) + b (ix2 0 q) := by
  simp only [k0_pay1, shapeCast_self]
  rw [addf_apply, bias_spread, product_at]
  refine congrArg (· + b (ix2 0 q)) (Finset.sum_congr rfl fun k _ => ?_)
  rw [truncf_apply, truncf_apply, divf_apply, col_spread, addf_apply, broadcast_apply]
  rfl

end Cert.MeanLinear.Body

end
-- ==== Proof.Blocks.lean ====
/-
  From the twenty blocks the call writes back to its whole result array.

  Grid point t works on node rows 2000·t … 2000·t + 1999: it loads those rows of the neighbour sums and
  of the degree column, the whole transposed weights and the whole bias row, and writes back those rows
  of the result. Entry (r, c) of the result array therefore depends on row r of the sums, on the degree
  of r, on column c of the transposed weights and on the bias at c only, and is one function
  (`rowsTimesWeights`) of the four operand arrays whichever block r falls in. Every row lies in exactly
  the block r / 2000, so the blocks cover the array.
-/
import proofs.«170134_j8718783611327_1_alg».proof.Proof.Gen.KernelIdeal.Value
import proofs.«170134_j8718783611327_1_alg».proof.Proof.BodyAt
import proofs.«170134_j8718783611327_1_alg».proof.Proof.Spec
import Idealize.ShloMosaic.Lib.Pipeline.Value
import Idealize.ShloMosaic.Lib.ValueIdx

noncomputable section

namespace Cert.MeanLinear.Blocks

open Cert.KernelIdeal Cert.KernelIdeal.Gen Cert.KernelIdeal.Value
open Idealize.ShloMosaic Idealize.ShloMosaic.TcCoe Idealize.SL.Sem Idealize.ShloMosaic.ValueIdx
open Idealize.ShloMosaic.Pipeline (Dat)

/-- The result array as one function of the four operand arrays: row r of the sums over the degree of r
    plus ε, against column c of the transposed weights, plus the bias row at c. -/
def rowsTimesWeights (sums : S40000x128.Idx → EReal) (degCol : S40000x1.Idx → EReal) (wt : S128x128.Idx → EReal)
    (biasRow : S1x128.Idx → EReal) : S40000x128.Idx → EReal :=
  fun i => (∑ k : Fin 128, Ideal.div (sums (ix2 (i 0) k)) (degCol (ix2 (i 0) 0) + eps) * wt (ix2 k (i 1))) + biasRow (ix2 0 (i 1))

theorem zero_offsets : (![0, 0] : Fin 2 → Nat) = fun _ => 0 := funext fun a => by fin_cases a <;> rfl

/-- The stored block at y is the whole-array function at i as soon as the loaded blocks hold, along row
    y 0 and column y 1, what the arrays hold along row i 0 and column i 1. -/
theorem stored_is (sums : S40000x128.Idx → EReal) (degCol : S40000x1.Idx → EReal) (wt : S128x128.Idx → EReal)
    (biasRow : S1x128.Idx → EReal) (x0 : Vec Ideal S2000x128 .f32) (x1 : Vec Ideal S2000x1 .f32) (x2 : Vec Ideal S128x128 .f32)
    (x3 : Vec Ideal S1x128 .f32) (y : S2000x128.Idx) (i : S40000x128.Idx)
    (h0 : ∀ k : Fin 128, x0 (ix2 (y 0) k) = sums (ix2 (i 0) k))
    (h1 : x1 (ix2 (y 0) 0) = degCol (ix2 (i 0) 0))
    (h2 : ∀ k : Fin 128, x2 (ix2 k (y 1)) = wt (ix2 k (i 1)))
    (h3 : x3 (ix2 0 (y 1)) = biasRow (ix2 0 (i 1))) :
    k0_pay1 (F := Ideal) x0 x1 x2 x3 y = rowsTimesWeights sums degCol wt biasRow i := by
  obtain ⟨p, q, rfl⟩ : ∃ (p : Fin 2000) (q : Fin 128), y = ix2 p q := ⟨y 0, y 1, eq_ix2 y⟩
  have g0 : ∀ k : Fin 128, x0 (ix2 p k) = sums (ix2 (i 0) k) := h0
  have g1 : x1 (ix2 p 0) = degCol (ix2 (i 0) 0) := h1
  have g2 : ∀ k : Fin 128, x2 (ix2 k q) = wt (ix2 k (i 1)) := h2
  have g3 : x3 (ix2 0 q) = biasRow (ix2 0 (i 1)) := h3
  rw [Body.stored_at, g1, g3]
  show (∑ k : Fin 128, Ideal.div (x0 (ix2 p k)) (degCol (ix2 (i 0) 0) + eps) * x2 (ix2 k q)) + biasRow (ix2 0 (i 1))
    = (∑ k : Fin 128, Ideal.div (sums (ix2 (i 0) k)) (degCol (ix2 (i 0) 0) + eps) * wt (ix2 k (i 1))) + biasRow (ix2 0 (i 1))
  exact congrArg (· + biasRow (ix2 0 (i 1))) (Finset.sum_congr rfl fun k _ => by rw [g0 k, g2 k])

/-- The printed block maps over the twenty grid points: the sums and the degree column move down with
    the result, one block of 2000 rows per point; the weights and the bias stay at their only block. -/
theorem block_maps : ∀ t : Fin cfg0.N,
    win0_0.index t (0 : Fin 2) = win0_4.index t (0 : Fin 2) ∧ win0_0.index t (1 : Fin 2) = 0
    ∧ win0_1.index t (0 : Fin 2) = win0_4.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- Block t of the whole-array function, for ANY four arrays: the body's stored block of the arrays' blocks at
    point t is the whole-array function read through the result's block at t. -/
theorem block_of_arrays (A0 : S40000x128.Idx → EReal) (A1 : S40000x1.Idx → EReal) (A2 : S128x128.Idx → EReal)
    (A3 : S1x128.Idx → EReal) (t : Fin cfg0.N) :
    (cfg0.win 4).cut (grid0.coords t)
        (k0_pay1 (F := Ideal) (((cfg0.win 0).blk t).view.read (Elt Ideal) A0) (((cfg0.win 1).blk t).view.read (Elt Ideal) A1)
          (((cfg0.win 2).blk t).view.read (Elt Ideal) A2) (((cfg0.win 3).blk t).view.read (Elt Ideal) A3))
      = ((cfg0.win 4).blk t).view.read (Elt Ideal) (rowsTimesWeights A0 A1 A2 A3) := by
  obtain ⟨e00, e01, e10, e11, e20, e21, e30, e31, e40, e41⟩ := block_maps t
  funext j
  refine stored_is A0 A1 A2 A3 (((cfg0.win 0).blk t).view.read (Elt Ideal) A0) (((cfg0.win 1).blk t).view.read (Elt Ideal) A1)
    (((cfg0.win 2).blk t).view.read (Elt Ideal) A2) (((cfg0.win 3).blk t).view.read (Elt Ideal) A3) j
    (((cfg0.win 4).blk t).view.emb j) (fun k => ?_) ?_ (fun k => ?_) ?_
  · show A0 (((cfg0.win 0).blk t).view.emb (ix2 (j 0) k)) = A0 (ix2 ((((cfg0.win 4).blk t).view.emb j) 0) k)
    refine congrArg A0 (funext fun a => Fin.ext ?_)
    match a with
    | ⟨0, _⟩ => show win0_0.index t (0 : Fin 2) * 2000 + 1 * (j 0).val = win0_4.index t (0 : Fin 2) * 2000 + 1 * (j 0).val; omega
    | ⟨1, _⟩ => show win0_0.index t (1 : Fin 2) * 128 + 1 * k.val = k.val; omega
  · show A1 (((cfg0.win 1).blk t).view.emb (ix2 (j 0) 0)) = A1 (ix2 ((((cfg0.win 4).blk t).view.emb j) 0) 0)
    refine congrArg A1 (funext fun a => Fin.ext ?_)
    match a with
    | ⟨0, _⟩ => show win0_1.index t (0 : Fin 2) * 2000 + 1 * (j 0).val = win0_4.index t (0 : Fin 2) * 2000 + 1 * (j 0).val; omega
    | ⟨1, _⟩ => show win0_1.index t (1 : Fin 2) * 1 + 1 * 0 = 0; omega
  · show A2 (((cfg0.win 2).blk t).view.emb (ix2 k (j 1))) = A2 (ix2 k ((((cfg0.win 4).blk t).view.emb j) 1))
    refine congrArg A2 (funext fun a => Fin.ext ?_)
    match a with
    | ⟨0, _⟩ => show win0_2.index t (0 : Fin 2) * 128 + 1 * k.val = k.val; omega
    | ⟨1, _⟩ => show win0_2.index t (1 : Fin 2) * 128 + 1 * (j 1).val = win0_4.index t (1 : Fin 2) * 128 + 1 * (j 1).val; omega
  · show A3 (((cfg0.win 3).blk t).view.emb (ix2 0 (j 1))) = A3 (ix2 0 ((((cfg0.win 4).blk t).view.emb j) 1))
    refine congrArg A3 (funext fun a => Fin.ext ?_)
    match a with
    | ⟨0, _⟩ => show win0_3.index t (0 : Fin 2) * 1 + 1 * 0 = 0; omega
    | ⟨1, _⟩ => show win0_3.index t (1 : Fin 2) * 128 + 1 * (j 1).val = win0_4.index t (1 : Fin 2) * 128 + 1 * (j 1).val; omega

variable (m : (ℓ : Loc nD τ sig) → Buf (Elt Ideal) ℓ) (ρ : Dev nD → PrngReg)

/-- What point t writes back is block t of the whole-array function of the operand arrays. -/
theorem written_back (c : Dev nD) (t : Fin cfg0.N) :
    (dats m 0 c).flushed 4 t = ((cfg0.win 4).blk t).view.read (Elt Ideal)
      (rowsTimesWeights (V m c main_v9) (V m c main_v14) (V m c main_v15) (V m c main_v16)) := by
  rw [Value.flushed4]
  unfold out0_4
  rw [View.canon_unit_zero zero_offsets]
  simp only [View.ld_unit_zero (S := S2000x128) zero_offsets, View.ld_unit_zero (S := S2000x1) zero_offsets,
    View.ld_unit_zero (S := S128x128) zero_offsets, View.ld_unit_zero (S := S1x128) zero_offsets]
  have b0 : iblk m c 0 t = ((cfg0.win 0).blk t).view.read (Elt Ideal) (V m c main_v9) := rfl
  have b1 : iblk m c 1 t = ((cfg0.win 1).blk t).view.read (Elt Ideal) (V m c main_v14) := rfl
  have b2 : iblk m c 2 t = ((cfg0.win 2).blk t).view.read (Elt Ideal) (V m c main_v15) := rfl
  have b3 : iblk m c 3 t = ((cfg0.win 3).blk t).view.read (Elt Ideal) (V m c main_v16) := rfl
  rw [b0, b1, b2, b3]
  exact block_of_arrays _ _ _ _ t

/-- An index of the result array lies in point t's block iff each coordinate lies in the block's range. -/
theorem in_block (t : Fin cfg0.N) (i : S40000x128.Idx) :
    i ∈ ((cfg0.win 4).blk t).view.set ↔ ∀ a : Fin 2, win0_4.index t a * S2000x128.size a ≤ (i a).val
      ∧ (i a).val < win0_4.index t a * S2000x128.size a + S2000x128.size a := by
  show i ∈ ((View.whole main_v17).slice (win0_4.rect t)).set ↔ _
  rw [View.set_slice_whole, Rect.mem_set_unit]
  exact Iff.rfl

/-- Every index of the result array lies in the block of the point its row divided by 2000 names. -/
theorem covered (i : S40000x128.Idx) :
    ∃ t : Fin cfg0.N, (cfg0.win 4).flush t = true ∧ i ∈ ((cfg0.win 4).blk t).view.set := by
  have hi0 : (i 0).val < 40000 := (i 0).isLt
  have hi1 : (i 1).val < 128 := (i 1).isLt
  have hN : cfg0.N = 20 := N_0
  obtain ⟨t, ht⟩ : ∃ t : Fin cfg0.N, t.val = (i 0).val / 2000 := ⟨⟨(i 0).val / 2000, by rw [hN]; omega⟩, rfl⟩
  obtain ⟨-, -, -, -, -, -, -, -, e40, e41⟩ := block_maps t
  refine ⟨t, flush0_4 t, ?_⟩
  rw [in_block]
  intro a
  match a with
  | ⟨0, _⟩ => show win0_4.index t (0 : Fin 2) * 2000 ≤ (i 0).val ∧ (i 0).val < win0_4.index t (0 : Fin 2) * 2000 + 2000; omega
  | ⟨1, _⟩ => show win0_4.index t (1 : Fin 2) * 128 ≤ (i 1).val ∧ (i 1).val < win0_4.index t (1 : Fin 2) * 128 + 128; omega

/-- So the result array ends holding the whole-array function of the operand arrays. -/
theorem result_array (c : Dev nD) :
    (dats m 0 c).arrAt 4 cfg0.N = rowsTimesWeights (V m c main_v9) (V m c main_v14) (V m c main_v15) (V m c main_v16) :=
  (dats m 0 c).arrAt_eq_of_cover 4 _ (fun t _ => written_back m c t) covered

end Cert.MeanLinear.Blocks

end
-- ==== Proof.LibColumnCast.lean ====
/-
  A vector of length `a` viewed as a column `[a, 1]`, read at an index.

  Both shapes list their entries in the same row-major order, and the column's entry (i, 0) is the
  i-th of them, so the column at (i, 0) is the vector at i.
-/
import Idealize.ShloMosaic.Lib.Pipeline.Value
import Idealize.ShloMosaic.Lib.ValueIdx

namespace Idealize.ShloMosaic.ValueIdx

variable {α : Type}

/-- A length-`a` vector cast to an `[a, 1]` column reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Idealize.ShloMosaic.ValueIdx
-- ==== Proof.Entry.lean ====
/-
  What the kernel's call finds in its four operand arrays, as functions of the program's arguments.

  Before the call the program gathers the source rows of the features along the edges and adds them up
  per destination node (`neighSum`), counts the edges per destination node by adding up ones (`degree`),
  views the degrees as a column, transposes the weights and views the bias as a row. The gather and the
  two additions are kept closed: the other program performs the very same three operations, so only
  their names are needed. The three layout changes are read at an index: the degree column at (r, 0) is
  the degree of node r, the transposed weights at (k, q) are the weights at (q, k), the bias row at
  (0, q) is the bias at q.
-/
import proofs.«170134_j8718783611327_1_alg».proof.Proof.Gen.KernelIdeal.Frame
import proofs.«170134_j8718783611327_1_alg».proof.Proof.Spec
import proofs.«170134_j8718783611327_1_alg».proof.Proof.LibColumnCast
import Idealize.ShloMosaic.Lib.StableHlo.Run
import Idealize.ShloMosaic.Lib.Pipeline.Value
import Idealize.ShloMosaic.Lib.ValueLayout
import Idealize.ShloMosaic.Lib.ValueIdx
import Idealize.ShloMosaic.PureOps.Ideal

noncomputable section

namespace Cert.MeanLinear.Entry

open Cert.KernelIdeal Cert.KernelIdeal.Gen Idealize.ShloMosaic Idealize.ShloMosaic.TcCoe Idealize.SL.Sem
open Idealize.ShloMosaic.StableHlo Idealize.ShloMosaic.ValueIdx

/-- Per destination node, the sum of the source nodes' feature rows over the edges arriving there
    (a negative source index is first wrapped around by the number of nodes). -/
def neighSum (x : (⟨S40000x128, .f32⟩ : BufTy).Contents (Elt Ideal)) (row col : (⟨S640000, .i32⟩ : BufTy).Contents (Elt Ideal)) :
    (⟨S40000x128, .f32⟩ : BufTy).Contents (Elt Ideal) :=
  Host.scatterAdd scatter_S40000x128_S640000x1_S640000x128_1_0_0_1
    (broadcastInDim S40000x128 ![] bcast_S_S40000x128 (constant (F := Ideal) S_ .f32 0x00000000#32))
    (broadcastInDim S640000x1 ![0] bcast_S640000_S640000x1_0 row)
    (Host.gather gather_S40000x128_S640000x1_S640000x128_1_0_n_n_0_1_1128 x
      (broadcastInDim S640000x1 ![0] bcast_S640000_S640000x1_0
        (select (cmpi .slt col (broadcastInDim S640000 ![] bcast_S_S640000 (constantI S_ 32 0#32)))
          (addi col (broadcastInDim S640000 ![] bcast_S_S640000 (constantI S_ 32 40000#32))) col)))

/-- Per destination node, the number of edges arriving there: ones added up from zero. -/
def degree (row : (⟨S640000, .i32⟩ : BufTy).Contents (Elt Ideal)) : (⟨S40000, .f32⟩ : BufTy).Contents (Elt Ideal) :=
  Host.scatterAdd scatter_S40000_S640000x1_S640000_n_0_0_1
    (broadcastInDim S40000 ![] bcast_S_S40000 (constant (F := Ideal) S_ .f32 0x00000000#32))
    (broadcastInDim S640000x1 ![0] bcast_S640000_S640000x1_0 row)
    (broadcastInDim S640000 ![] bcast_S_S640000 (constant (F := Ideal) S_ .f32 0x3F800000#32))

variable (m : (ℓ : Loc nD τ sig) → Buf (Elt Ideal) ℓ)

/-- The first operand array holds the neighbour sums of the arguments. -/
theorem sums_found (c : Dev nD) :
    (V m c main_v9 : S40000x128.Idx → EReal)
      = neighSum (m ((c : Thread nD τ).loc main_arg0)) (m ((c : Thread nD τ).loc main_arg1)) (m ((c : Thread nD τ).loc main_arg2)) := by
  dsimp only [Gen.V, Gen.hostOps0]
  after_results <;> rfl

/-- The second operand array, a column, holds at (r, 0) the degree of node r. -/
theorem degree_found (c : Dev nD) (r : Fin 40000) :
    (V m c main_v14 : S40000x1.Idx → EReal) (ix2 r 0) = degree (m ((c : Thread nD τ).loc main_arg1)) (ix1 r) := by
  have e : (V m c main_v14 : S40000x1.Idx → EReal)
      = shapeCast S40000x1 (degree (m ((c : Thread nD τ).loc main_arg1))) shapeCasts_S40000_S40000x1 := by
    dsimp only [Gen.V, Gen.hostOps0]
    after_results <;> rfl
  rw [e]
  exact shapeCast_a_a1_apply _ _ r 0

/-- The third operand array holds the weights transposed. -/
theorem weights_found (c : Dev nD) (k q : Fin 128) :
    (V m c main_v15 : S128x128.Idx → EReal) (ix2 k q) = (m ((c : Thread nD τ).loc main_arg3) : S128x128.Idx → EReal) (ix2 q k) := by
  have e : (V m c main_v15 : S128x128.Idx → EReal)
      = transpose S128x128 [1, 0] (m ((c : Thread nD τ).loc main_arg3)) transposes_S128x128_S128x128_1_0 := by
    dsimp only [Gen.V, Gen.hostOps0]
    after_results <;> rfl
  rw [e]
  exact transpose_ix2_apply _ _ k q

/-- The fourth operand array, a row, holds at (0, q) the bias at q. -/
theorem bias_found (c : Dev nD) (q : Fin 128) :
    (V m c main_v16 : S1x128.Idx → EReal) (ix2 0 q) = (m ((c : Thread nD τ).loc main_arg4) : S128.Idx → EReal) (ix1 q) := by
  have e : (V m c main_v16 : S1x128.Idx → EReal)
      = shapeCast S1x128 (m ((c : Thread nD τ).loc main_arg4)) shapeCasts_S128_S1x128 := by
    dsimp only [Gen.V, Gen.hostOps0]
    after_results <;> rfl
  rw [e]
  exact shapeCast_a_1a_apply _ _ 0 q

end Cert.MeanLinear.Entry

end
-- ==== Proof.KernelIsSpec.lean ====
/-
  The kernel's result array is `meanLinear` of the neighbour sums and degrees it prepared.

  Substituting what the call finds in its operand arrays into the whole-array function of the blocks:
  the degree column at (r, 0) is the degree of r, the transposed weights at (k, c) are the weights at
  (c, k), the bias row at (0, c) is the bias at c. What remains is the specification, term for term.
-/
import proofs.«170134_j8718783611327_1_alg».proof.Proof.Blocks
import proofs.«170134_j8718783611327_1_alg».proof.Proof.Entry

noncomputable section

namespace Cert.MeanLinear.Kernel

open Cert.KernelIdeal Cert.KernelIdeal.Gen Cert.KernelIdeal.Value
open Idealize.ShloMosaic Idealize.ShloMosaic.TcCoe Idealize.SL.Sem Idealize.ShloMosaic.ValueIdx

variable (m : (ℓ : Loc nD τ sig) → Buf (Elt Ideal) ℓ) (ρ : Dev nD → PrngReg)

/-- The specification at the kernel's arguments on core c. -/
abbrev result (c : Dev nD) : S40000x128.Idx → EReal :=
  meanLinear (Entry.neighSum (m ((c : Thread nD τ).loc main_arg0)) (m ((c : Thread nD τ).loc main_arg1)) (m ((c : Thread nD τ).loc main_arg2)))
    (Entry.degree (m ((c : Thread nD τ).loc main_arg1))) (m ((c : Thread nD τ).loc main_arg3)) (m ((c : Thread nD τ).loc main_arg4))

/-- The whole-array function of four operand arrays is the specification of a vector of sums, a vector of
    degrees, a weight matrix and a bias vector, as soon as the first array holds the sums, the second is the
    degrees as a column, the third the weights transposed and the fourth the bias as a row. -/
theorem spec_of_operands (A0 : S40000x128.Idx → EReal) (A1 : S40000x1.Idx → EReal) (A2 : S128x128.Idx → EReal)
    (A3 : S1x128.Idx → EReal) (dg : S40000.Idx → EReal) (w : S128x128.Idx → EReal) (b : S128.Idx → EReal)
    (h1 : ∀ r : Fin 40000, A1 (ix2 r 0) = dg (ix1 r)) (h2 : ∀ k q : Fin 128, A2 (ix2 k q) = w (ix2 q k))
    (h3 : ∀ q : Fin 128, A3 (ix2 0 q) = b (ix1 q)) :
    Blocks.rowsTimesWeights A0 A1 A2 A3 = meanLinear A0 dg w b := by
  funext i
  obtain ⟨r, q, rfl⟩ : ∃ (r : Fin 40000) (q : Fin 128), i = ix2 r q := ⟨i 0, i 1, eq_ix2 i⟩
  show (∑ k : Fin 128, Ideal.div (A0 (ix2 r k)) (A1 (ix2 r 0) + eps) * A2 (ix2 k q)) + A3 (ix2 0 q)
    = (∑ k : Fin 128, Ideal.div (A0 (ix2 r k)) (dg (ix1 r) + eps) * w (ix2 q k)) + b (ix1 q)
  rw [h1 r, h3 q]
  exact congrArg (· + b (ix1 q)) (Finset.sum_congr rfl fun k _ => by rw [h2 k q])

/-- The whole-array function of the operand arrays, at what the call finds in them, is the specification. -/
theorem found_is_spec (c : Dev nD) :
    Blocks.rowsTimesWeights (V m c main_v9) (V m c main_v14) (V m c main_v15) (V m c main_v16) = result m c :=
  (spec_of_operands (V m c main_v9) (V m c main_v14) (V m c main_v15) (V m c main_v16)
      (Entry.degree (m ((c : Thread nD τ).loc main_arg1))) (m ((c : Thread nD τ).loc main_arg3)) (m ((c : Thread nD τ).loc main_arg4))
      (Entry.degree_found m c) (Entry.weights_found m c) (Entry.bias_found m c)).trans
    (congrArg (fun s => meanLinear s (Entry.degree (m ((c : Thread nD τ).loc main_arg1))) (m ((c : Thread nD τ).loc main_arg3))
      (m ((c : Thread nD τ).loc main_arg4))) (Entry.sums_found m c))

/-- Every fair run of the kernel's program ends with its result array at the specification and its
    arguments as they were. -/
theorem run : θ_run defs (onTc (τ := τ) (main (F := Ideal))) ⟨m, fun _ => 0, ρ⟩ fun r => ∀ c : Dev nD,
      r.2.mem ((c : Thread nD τ).loc main_v17) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans ((Blocks.result_array m c).trans (found_is_spec m c)), (h c).2⟩)
    (Value.run_blocks m ρ)

end Cert.MeanLinear.Kernel

end
-- ==== Proof.RefIsSpec.lean ====
/-
  The reference, read index by index, is `meanLinear` of its own neighbour sums and degrees.

  Entry (r, c) of the reference's product is the sum over the feature axis of the quotient at (r, k)
  times the transposed weights at (k, c), that is the weights at (c, k); the divisor at (r, k) is the
  degree column at (r, 0) plus ε, whatever k is; the bias row is read at c. The gather and the two
  scatter-adds that build the sums and the degrees are left closed.
-/
import proofs.«170134_j8718783611327_1_alg».proof.Proof.Gen.ReferenceIdeal.Read
import proofs.«170134_j8718783611327_1_alg».proof.Proof.Spec

noncomputable section

namespace Cert.MeanLinear.Ref

open Cert.ReferenceIdeal Cert.ReferenceIdeal.Read Idealize.ShloMosaic Idealize.ShloMosaic.ValueIdx

/-- The left operand of the product at output (r, c) and feature k sits at (r, k). -/
theorem lhs_at (i : S40000x128.Idx) (k : Fin 128) : lidx_main_v20 i k = ix2 (i 0) k :=
  funext fun a => Fin.ext (by match a with | ⟨0, _⟩ => rfl | ⟨1, _⟩ => rfl)

/-- The divisor there is read off the degree of node r. -/
theorem deg_at (i : S40000x128.Idx) (k : Fin 128) : idx_main_v14 (idx_main_v17 (lidx_main_v20 i k)) = ix1 (i 0) :=
  funext fun a => Fin.ext (by match a with | ⟨0, _⟩ => rfl)

/-- The right operand, the transposed weights at (k, c), is the weights at (c, k). -/
theorem rhs_at (i : S40000x128.Idx) (k : Fin 128) : idx_main_v19 (ridx_main_v20 i k) = ix2 (i 1) k :=
  funext fun a => Fin.ext (by match a with | ⟨0, _⟩ => rfl | ⟨1, _⟩ => rfl)

/-- The bias broadcast over the rows is read at the column. -/
theorem bias_at (i : S40000x128.Idx) : idx_main_v21 (idx_main_v22 i) = ix1 (i 1) :=
  funext fun a => Fin.ext (by match a with | ⟨0, _⟩ => rfl)

/-- The reference's result is `meanLinear` of its neighbour sums, its degrees, the weights and the bias. -/
theorem ref_eq (x0 : (⟨S40000x128, .f32⟩ : BufTy).Contents (Elt Ideal)) (x1 x2 : (⟨S640000, .i32⟩ : BufTy).Contents (Elt Ideal))
    (x3 : (⟨S128x128, .f32⟩ : BufTy).Contents (Elt Ideal)) (x4 : (⟨S128, .f32⟩ : BufTy).Contents (Elt Ideal)) :
    val_main_v23 (F := Ideal) x0 x1 x2 x3 x4
      = meanLinear (val_main_v9 (F := Ideal) x0 x1 x2) (val_main_v13 (F := Ideal) x1) x3 x4 := by
  funext i
  rw [val_main_v23_apply, val_main_v20_apply, val_main_v22_apply, val_main_v21_apply, bias_at]
  unfold meanLinear
  refine congrArg₂ (fun s t : EReal => s + t) (Finset.sum_congr rfl fun k _ => ?_) rfl
  rw [val_main_v18_apply, val_main_v17_apply, val_main_v16_apply, val_main_v14_apply, val_main_v15_apply,
    val_main_cst_3_apply, val_main_v19_apply, deg_at, rhs_at, lhs_at]
  rfl

end Cert.MeanLinear.Ref

end
-- ==== Proof.SamePrefix.lean ====
/-
  Both programs prepare the neighbour sums and the degrees by the same operations.

  The reference gathers the source rows along the edges, adds them up per destination node from zero,
  and counts the edges per node by adding up ones from zero — the same three operations, with the same
  dimension numbers and the same constant words, as the kernel's program performs before its call. The
  two texts name their shapes and dimension records separately; the records have the same fields, so
  the terms are equal by unfolding the names.
-/
import proofs.«170134_j8718783611327_1_alg».proof.Proof.Entry
import proofs.«170134_j8718783611327_1_alg».proof.Proof.Gen.ReferenceIdeal.Read

noncomputable section

namespace Cert.MeanLinear.Same

open Idealize.ShloMosaic

/-- The reference's neighbour sums are the kernel program's. -/
theorem sums_same (x : (⟨Cert.KernelIdeal.S40000x128, .f32⟩ : BufTy).Contents (Elt Ideal))
    (row col : (⟨Cert.KernelIdeal.S640000, .i32⟩ : BufTy).Contents (Elt Ideal)) :
    Cert.ReferenceIdeal.Read.val_main_v9 (F := Ideal) x row col = Entry.neighSum x row col := rfl

/-- The reference's degrees are the kernel program's. -/
theorem degree_same (row : (⟨Cert.KernelIdeal.S640000, .i32⟩ : BufTy).Contents (Elt Ideal)) :
    Cert.ReferenceIdeal.Read.val_main_v13 (F := Ideal) row = Entry.degree row := rfl

end Cert.MeanLinear.Same

end
-- ==== Proof.lean ====
/-
  A node's mean neighbour feature vector through a linear layer: the blocked kernel against the plain
  reference, on the extended reals.

  Both programs first gather the source nodes' feature rows along the edges and add them up per
  destination node, and count the edges per destination node; these three operations are the same text in
  both and are never opened. From there
      out r c = (∑ k, (sums r k / (degree r + ε)) · w c k) + b c
  on both sides: the kernel computes it 2000 node rows at a time, dividing inside the block and multiplying
  the quotient block by the transposed weights from a zero accumulator; the reference divides the whole
  array, multiplies it by the transposed weights and adds the bias spread over the rows. Entry (r, c)
  depends on row r of the sums, the degree of r, row c of the weights and the bias at c only, so the block a
  row falls in does not matter, and the two sums over the 128 features have the same terms in the same
  order. No law of the extended reals beyond that is used, so the inputs' finiteness is never needed, and ε
  is the same f32 word on both sides.

  The kernel's program as printed and as idealized differ in no operation, so the idealization has nothing to
  preserve; the three programs' runs end with their arguments unchanged by the generated frame runs.
-/
import proofs.«170134_j8718783611327_1_alg».proof.Defs
import proofs.«170134_j8718783611327_1_alg».proof.Proof.Gen.Kernel
import proofs.«170134_j8718783611327_1_alg».proof.Proof.Gen.Kernel.Skeleton
import proofs.«170134_j8718783611327_1_alg».proof.Proof.Gen.Kernel.Launch
import proofs.«170134_j8718783611327_1_alg».proof.Proof.Gen.Kernel.Points
import proofs.«170134_j8718783611327_1_alg».proof.Proof.Gen.Kernel.Frame
import proofs.«170134_j8718783611327_1_alg».proof.Proof.Gen.KernelIdeal
import proofs.«170134_j8718783611327_1_alg».proof.Proof.Gen.KernelIdeal.Skeleton
import proofs.«170134_j8718783611327_1_alg».proof.Proof.Gen.KernelIdeal.Launch
import proofs.«170134_j8718783611327_1_alg».proof.Proof.Gen.KernelIdeal.Points
import proofs.«170134_j8718783611327_1_alg».proof.Proof.Gen.KernelIdeal.Frame
import proofs.«170134_j8718783611327_1_alg».proof.Proof.Gen.ReferenceIdeal
import proofs.«170134_j8718783611327_1_alg».proof.Proof.Gen.Pre_finite_inputs
import proofs.«170134_j8718783611327_1_alg».proof.Proof.Gen.KernelIdeal.Value
import proofs.«170134_j8718783611327_1_alg».proof.Proof.Gen.ReferenceIdeal.Run
import proofs.«170134_j8718783611327_1_alg».proof.Proof.Gen.ReferenceIdeal.Read
import proofs.«170134_j8718783611327_1_alg».proof.Proof.KernelIsSpec
import proofs.«170134_j8718783611327_1_alg».proof.Proof.RefIsSpec
import proofs.«170134_j8718783611327_1_alg».proof.Proof.SamePrefix
import Idealize.ShloMosaic.Adequacy
import Idealize.ShloMosaic.Init

noncomputable section

namespace Cert.Proof

open Idealize.ShloMosaic Idealize.SL.Sem

/-- The kernel's program as printed runs and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From arguments that agree, both programs end with the specification at those arguments: the kernel by its
    blocks, the reference by reading its operations at an index; the sums and the degrees they divide are
    prepared by the same operations. -/
theorem algebraic : Cert.algebraic_KernelIdeal_ReferenceIdeal := by
  intro m ρ m' ρ' _ hagree
  refine ⟨fun c => Cert.MeanLinear.Kernel.result m c, Cert.MeanLinear.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v23_eq, Cert.MeanLinear.Ref.ref_eq, Cert.MeanLinear.Same.sums_same,
    Cert.MeanLinear.Same.degree_same, (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
